-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S4 : Shape := ⟨1, ![4]⟩
abbrev S4x3072 : Shape := ⟨2, ![4, 3072]⟩
abbrev S3072 : Shape := ⟨1, ![3072]⟩
abbrev S3072x768 : Shape := ⟨2, ![3072, 768]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S4 : S_.BroadcastsInDim S4 (![] : Fin 0 → Fin S4.rank)
  reducesTo_S4_S_d0 : S4.ReducesTo [0] S_
  bcast_S_S4x3072 : S_.BroadcastsInDim S4x3072 (![] : Fin 0 → Fin S4x3072.rank)
  reducesTo_S4x3072_S_d0_1 : S4x3072.ReducesTo [0, 1] S_
  bcast_S_S3072 : S_.BroadcastsInDim S3072 (![] : Fin 0 → Fin S3072.rank)
  reducesTo_S3072_S_d0 : S3072.ReducesTo [0] S_
  bcast_S_S3072x768 : S_.BroadcastsInDim S3072x768 (![] : Fin 0 → Fin S3072x768.rank)
  reducesTo_S3072x768_S_d0_1 : S3072x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S3072x768 .f32) (main_arg5 : FVec F S768 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S3072x768 .f32 := Host.absf main_arg4
  let main_cst_6 : FVec F S_ .f32 := constant S_ .f32 0x7F800000#32
  let main_v20 : FVec F S3072x768 .f32 := broadcastInDim S3072x768 ![] bcast_S_S3072x768 main_cst_6
  let main_v21 : IVec S3072x768 1 := cmpf .olt main_v19 main_v20
  let main_c_7 : IVec S_ 1 := constantI S_ 1 1#1
  let main_v22 : IVec S_ 1 := (fun x v => Host.reduce IntOp.andi x v reducesTo_S3072x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S8x2048x768 .f32) (main_arg1 : FVec F S4 .f32) (main_arg2 : FVec F S4x3072 .f32) (main_arg3 : FVec F S3072 .f32) (main_arg4 : FVec F S3072x768 .f32) (main_arg5 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4x3072 .f32 := Host.absf main_arg2
  let main_cst_2 : FVec F S_ .f32 := constant S_ .f32 0x7F800000#32
  let main_v10 : FVec F S4x3072 .f32 := broadcastInDim S4x3072 ![] bcast_S_S4x3072 main_cst_2
  let main_v11 : IVec S4x3072 1 := cmpf .olt main_v9 main_v10
  let main_c_3 : IVec S_ 1 := constantI S_ 1 1#1
  let main_v12 : IVec S_ 1 := (fun x v => Host.reduce IntOp.andi x v reducesTo_S4x3072_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S8x2048x768 : Shape := ⟨3, ![8, 2048, 768]⟩
abbrev S4 : Shape := ⟨1, ![4]⟩
abbrev S4x3072 : Shape := ⟨2, ![4, 3072]⟩
abbrev S3072 : Shape := ⟨1, ![3072]⟩
abbrev S3072x768 : Shape := ⟨2, ![3072, 768]⟩
abbrev S768 : Shape := ⟨1, ![768]⟩
abbrev S16384x768 : Shape := ⟨2, ![16384, 768]⟩
abbrev S4x1 : Shape := ⟨2, ![4, 1]⟩
abbrev S1024x128 : Shape := ⟨2, ![1024, 128]⟩
abbrev S1024x768 : Shape := ⟨2, ![1024, 768]⟩
abbrev S1024x4 : Shape := ⟨2, ![1024, 4]⟩
abbrev S1024x1 : Shape := ⟨2, ![1024, 1]⟩
abbrev S1x3072 : Shape := ⟨2, ![1, 3072]⟩
abbrev S1024x3072 : Shape := ⟨2, ![1024, 3072]⟩
abbrev S1x768 : Shape := ⟨2, ![1, 768]⟩

abbrev nBuf : Space → Nat
  | .hbm => 14
  | .vmem => 8
  | .smem => 0
  | _ => 0

abbrev bufTy : (tb : Table) → Fin (tcTables nBuf tb) → BufTy
  | .hbm, ⟨0, _⟩ => ⟨S8x2048x768, .f32⟩
  | .hbm, ⟨1, _⟩ => ⟨S4, .f32⟩
  | .hbm, ⟨2, _⟩ => ⟨S4x3072, .f32⟩
  | .hbm, ⟨3, _⟩ => ⟨S3072, .f32⟩
  | .hbm, ⟨4, _⟩ => ⟨S3072x768, .f32⟩
  | .hbm, ⟨5, _⟩ => ⟨S768, .f32⟩
  | .hbm, ⟨6, _⟩ => ⟨S16384x768, .f32⟩
  | .hbm, ⟨7, _⟩ => ⟨S4, .f32⟩
  | .hbm, ⟨8, _⟩ => ⟨S4x1, .f32⟩
  | .hbm, ⟨9, _⟩ => ⟨S4x3072, .f32⟩
  | .hbm, ⟨10, _⟩ => ⟨S4x3072, .f32⟩
  | .hbm, ⟨11, _⟩ => ⟨S3072x768, .bf16⟩
  | .hbm, ⟨12, _⟩ => ⟨S16384x768, .f32⟩
  | .hbm, ⟨13, _⟩ => ⟨S8x2048x768, .f32⟩
  | .local _ .vmem, ⟨0, _⟩ => ⟨S1024x128, .f32⟩
  | .local _ .vmem, ⟨1, _⟩ => ⟨S1024x128, .f32⟩
  | .local _ .vmem, ⟨2, _⟩ => ⟨S4x3072, .f32⟩
  | .local _ .vmem, ⟨3, _⟩ => ⟨S3072, .f32⟩
  | .local _ .vmem, ⟨4, _⟩ => ⟨S3072x768, .bf16⟩
  | .local _ .vmem, ⟨5, _⟩ => ⟨S768, .f32⟩
  | .local _ .vmem, ⟨6, _⟩ => ⟨S1024x768, .f32⟩
  | .local _ .vmem, ⟨7, _⟩ => ⟨S1024x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x2048x768_S16384x768 : S8x2048x768.ShapeCasts S16384x768
  bcast_S4_S4x1_0 : S4.BroadcastsInDim S4x1 (![0] : Fin 1 → Fin S4x1.rank)
  bcast_S4x1_S4x3072_0_1 : S4x1.BroadcastsInDim S4x3072 (![0, 1] : Fin 2 → Fin S4x3072.rank)
  bitsLt_bf16_f32 : FTy.bits .bf16 < FTy.bits .f32
  inb_S1024x128_S1024x4_0_0 : ∀ a, (![0, 0] : Fin 2 → Nat) a + S1024x4.size a ≤ S1024x128.size a
  h_S1024x4 : 0 < S1024x4.numel
  shapeCasts_S1024x4_S1024x4 : S1024x4.ShapeCasts S1024x4
  inb_S4x3072_S4x3072_0_0 : ∀ a, (![0, 0] : Fin 2 → Nat) a + S4x3072.size a ≤ S4x3072.size a
  h_S4x3072 : 0 < S4x3072.numel
  shapeCasts_S4x3072_S4x3072 : S4x3072.ShapeCasts S4x3072
  slices_S1024x4_o0_0_S1024x1 : S1024x4.Slices ![0, 0] S1024x1
  slices_S4x3072_o0_0_S1x3072 : S4x3072.Slices ![0, 0] S1x3072
  shapeCasts_S1x3072_S3072 : S1x3072.ShapeCasts S3072
  shapeCasts_S3072_S1x3072 : S3072.ShapeCasts S1x3072
  broadcasts_S1024x1_S1024x3072 : S1024x1.Broadcasts S1024x3072
  broadcasts_S1x3072_S1024x3072 : S1x3072.Broadcasts S1024x3072
  slices_S1024x4_o0_1_S1024x1 : S1024x4.Slices ![0, 1] S1024x1
  slices_S4x3072_o1_0_S1x3072 : S4x3072.Slices ![1, 0] S1x3072
  slices_S1024x4_o0_2_S1024x1 : S1024x4.Slices ![0, 2] S1024x1
  slices_S4x3072_o2_0_S1x3072 : S4x3072.Slices ![2, 0] S1x3072
  slices_S1024x4_o0_3_S1024x1 : S1024x4.Slices ![0, 3] S1024x1
  slices_S4x3072_o3_0_S1x3072 : S4x3072.Slices ![3, 0] S1x3072
  inb_S3072_S3072_0 : ∀ a, (![0] : Fin 1 → Nat) a + S3072.size a ≤ S3072.size a
  h_S3072 : 0 < S3072.numel
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  shapeCasts_S16384x768_S8x2048x768 : S16384x768.ShapeCasts S8x2048x768
  dot_S1024x3072_S3072x768_S1024x768_1_0_0_1_n_n_wf : DotDims.WF S1024x3072 S3072x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x768.size a
  hwx0_0 : ∀ i : grid0.Coords, EltTy.bits .f32 = 32 ∨ (Rect.block (s := S16384x768) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x3072.size a ≤ S4x3072.size a
  hwx0_1 : ∀ i : grid0.Coords, EltTy.bits .f32 = 32 ∨ (Rect.block (s := S4x3072) S4x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x768.size a ≤ S3072x768.size a
  hwx0_3 : ∀ i : grid0.Coords, EltTy.bits .bf16 = 32 ∨ (Rect.block (s := S3072x768) S3072x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S16384x768.size a
  hwx0_5 : ∀ i : grid0.Coords, EltTy.bits .f32 = 32 ∨ (Rect.block (s := S16384x768) S1024x768.size (cc0_transform_5 i) (hinb0_5 i)).WholeWords (EltTy.packing .f32)

variable [Facts₀]

def dot_S1024x3072_S3072x768_S1024x768_1_0_0_1_n_n : DotDims S1024x3072 S3072x768 S1024x768 where
  lhsContracting := [1]
  rhsContracting := [0]
  lhsNonContracting := [0]
  rhsNonContracting := [1]
  lhsBatch := []
  rhsBatch := []
  wf := dot_S1024x3072_S3072x768_S1024x768_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S3072x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S4 : Shape := ⟨1, ![4]⟩
abbrev S4x3072 : Shape := ⟨2, ![4, 3072]⟩
abbrev S3072 : Shape := ⟨1, ![3072]⟩
abbrev S3072x768 : Shape := ⟨2, ![3072, 768]⟩
abbrev S768 : Shape := ⟨1, ![768]⟩
abbrev S8x2048x4 : Shape := ⟨3, ![8, 2048, 4]⟩
abbrev S1x1x4 : Shape := ⟨3, ![1, 1, 4]⟩
abbrev S8x2048x3072 : Shape := ⟨3, ![8, 2048, 3072]⟩
abbrev S1x1x3072 : Shape := ⟨3, ![1, 1, 3072]⟩
abbrev S_ : Shape := ⟨0, ![]⟩
abbrev S1x1x768 : Shape := ⟨3, ![1, 1, 768]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S4, .f32⟩
  | .hbm, ⟨2, _⟩ => ⟨S4x3072, .f32⟩
  | .hbm, ⟨3, _⟩ => ⟨S3072, .f32⟩
  | .hbm, ⟨4, _⟩ => ⟨S3072x768, .f32⟩
  | .hbm, ⟨5, _⟩ => ⟨S768, .f32⟩
  | .hbm, ⟨6, _⟩ => ⟨S8x2048x4, .f32⟩
  | .hbm, ⟨7, _⟩ => ⟨S8x2048x4, .f32⟩
  | .hbm, ⟨8, _⟩ => ⟨S4, .f32⟩
  | .hbm, ⟨9, _⟩ => ⟨S1x1x4, .f32⟩
  | .hbm, ⟨10, _⟩ => ⟨S8x2048x4, .f32⟩
  | .hbm, ⟨11, _⟩ => ⟨S8x2048x4, .f32⟩
  | .hbm, ⟨12, _⟩ => ⟨S8x2048x3072, .f32⟩
  | .hbm, ⟨13, _⟩ => ⟨S1x1x3072, .f32⟩
  | .hbm, ⟨14, _⟩ => ⟨S8x2048x3072, .f32⟩
  | .hbm, ⟨15, _⟩ => ⟨S8x2048x3072, .f32⟩
  | .hbm, ⟨16, _⟩ => ⟨S_, .f32⟩
  | .hbm, ⟨17, _⟩ => ⟨S8x2048x3072, .f32⟩
  | .hbm, ⟨18, _⟩ => ⟨S8x2048x3072, .f32⟩
  | .hbm, ⟨19, _⟩ => ⟨S8x2048x768, .f32⟩
  | .hbm, ⟨20, _⟩ => ⟨S1x1x768, .f32⟩
  | .hbm, ⟨21, _⟩ => ⟨S8x2048x768, .f32⟩
  | .hbm, ⟨22, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x2048x768_S8x2048x4_0_0_0 : S8x2048x768.Slices ![0, 0, 0] S8x2048x4
  bcast_S4_S1x1x4_2 : S4.BroadcastsInDim S1x1x4 (![2] : Fin 1 → Fin S1x1x4.rank)
  bcast_S1x1x4_S8x2048x4_0_1_2 : S1x1x4.BroadcastsInDim S8x2048x4 (![0, 1, 2] : Fin 3 → Fin S8x2048x4.rank)
  bcast_S3072_S1x1x3072_2 : S3072.BroadcastsInDim S1x1x3072 (![2] : Fin 1 → Fin S1x1x3072.rank)
  bcast_S1x1x3072_S8x2048x3072_0_1_2 : S1x1x3072.BroadcastsInDim S8x2048x3072 (![0, 1, 2] : Fin 3 → Fin S8x2048x3072.rank)
  bcast_S_S8x2048x3072 : S_.BroadcastsInDim S8x2048x3072 (![] : Fin 0 → Fin S8x2048x3072.rank)
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  dot_S8x2048x4_S4x3072_S8x2048x3072_2_0_01_1_n_n_wf : DotDims.WF S8x2048x4 S4x3072 S8x2048x3072 [2] [0] [0, 1] [1] [] []
  dot_S8x2048x3072_S3072x768_S8x2048x768_2_0_01_1_n_n_wf : DotDims.WF S8x2048x3072 S3072x768 S8x2048x768 [2] [0] [0, 1] [1] [] []

variable [Facts₀]

def dot_S8x2048x4_S4x3072_S8x2048x3072_2_0_01_1_n_n : DotDims S8x2048x4 S4x3072 S8x2048x3072 where
  lhsContracting := [2]
  rhsContracting := [0]
  lhsNonContracting := [0, 1]
  rhsNonContracting := [1]
  lhsBatch := []
  rhsBatch := []
  wf := dot_S8x2048x4_S4x3072_S8x2048x3072_2_0_01_1_n_n_wf
def dot_S8x2048x3072_S3072x768_S8x2048x768_2_0_01_1_n_n : DotDims S8x2048x3072 S3072x768 S8x2048x768 where
  lhsContracting := [2]
  rhsContracting := [0]
  lhsNonContracting := [0, 1]
  rhsNonContracting := [1]
  lhsBatch := []
  rhsBatch := []
  wf := dot_S8x2048x3072_S3072x768_S8x2048x768_2_0_01_1_n_n_wf

class Facts : Prop extends Facts₀ where

variable [Facts]
-- ==== Proof.Spec.lean ====
/-
  One output element of the feed-forward block, as a function of scalars, in two arrangements, and the law that joins them.

  A token's row holds four angles a₀…a₃ (the first four channels). The first layer is
      h f = max (Σ_q cos(a q) · cos(θ q) · W1 q f + b1 f) 0,          f < 3072,
  and the output element for column e is Σ_f h f · W2 f e + b2 e.
  The kernel multiplies cos(θ q) into the first-layer weights beforehand, w q f = W1 q f · cos(θ q), and adds the four products
  cos(a q) · w q f one after another, left to right. The two arrangements differ by the grouping and order of the three factors of
  each product and by writing a four-term sum out; multiplication and addition of extended reals are commutative and
  associative without any finiteness hypothesis, so the two agree on every input, infinite ones included.
-/
import Idealize.ShloMosaic.PureOps.Ideal
import Idealize.ShloMosaic.Lib.ValueIdx

noncomputable section

namespace Cert.FeedForward

open Idealize.ShloMosaic Idealize.ShloMosaic.ValueIdx

/-- One output element with cos θ already folded into the first-layer weights `w`: the four products added left to right,
    the bias, the maximum with `z` (the zero of the rectifier), then the second layer's sum over the 3072 hidden units and its
    bias. -/
def elemFolded (a : Fin 4 → EReal) (w : Fin 4 → Fin 3072 → EReal) (b1 w2 : Fin 3072 → EReal) (b2 z : EReal) : EReal :=
  (∑ f : Fin 3072,
      max (Ideal.cos (a 0) * w 0 f + Ideal.cos (a 1) * w 1 f + Ideal.cos (a 2) * w 2 f + Ideal.cos (a 3) * w 3 f + b1 f) z * w2 f) + b2

/-- The same element as the plain formula: the first layer a sum over the four channels of cos(a q) · cos(θ q) · W1 q f. -/
def elemPlain (a θ : Fin 4 → EReal) (W1 : Fin 4 → Fin 3072 → EReal) (b1 w2 : Fin 3072 → EReal) (b2 z : EReal) : EReal :=
  (∑ f : Fin 3072, max ((∑ q : Fin 4, Ideal.cos (a q) * Ideal.cos (θ q) * W1 q f) + b1 f) z * w2 f) + b2

/-- Folding cos θ into the weights changes nothing: x · (y · t) = x · t · y in each of the four products, and the sum over
    `Fin 4` is its four terms in order. -/
theorem elemFolded_eq_elemPlain (a θ : Fin 4 → EReal) (W1 : Fin 4 → Fin 3072 → EReal) (b1 w2 : Fin 3072 → EReal) (b2 z : EReal) :
    elemFolded a (fun q f => W1 q f * Ideal.cos (θ q)) b1 w2 b2 z = elemPlain a θ W1 b1 w2 b2 z := by
  unfold elemFolded elemPlain
  have h : ∀ x y t : EReal, x * (y * t) = x * t * y := fun x y t => by rw [mul_comm y t, mul_assoc]
  refine congrArg (· + b2) (Finset.sum_congr rfl fun f _ => ?_)
  beta_reduce
  rw [Fin.sum_univ_four, h, h, h, h]

/-- Channel `q` of the four angle channels, as a channel of the 768. -/
def col (q : Fin 4) : Fin 768 := ⟨q.val, by have := q.isLt; omega⟩

theorem col_val (q : Fin 4) : (col q).val = q.val := rfl

/-- The zero the rectifier compares with: the float word 0x00000000, never evaluated (it is the same word on both sides). -/
abbrev zeroWord : EReal := Ideal.ofBits .f32 0x00000000#32

/-- THE RESULT, [8, 2048, 768], as one function of the six argument arrays: element (b, t, e) is the plain formula on the
    four angles x[b, t, 0..3]. -/
def ffn (x : (⟨3, ![8, 2048, 768]⟩ : Shape).Idx → EReal) (θ : (⟨1, ![4]⟩ : Shape).Idx → EReal)
    (W1 : (⟨2, ![4, 3072]⟩ : Shape).Idx → EReal) (b1 : (⟨1, ![3072]⟩ : Shape).Idx → EReal)
    (W2 : (⟨2, ![3072, 768]⟩ : Shape).Idx → EReal) (b2 : (⟨1, ![768]⟩ : Shape).Idx → EReal) :
    (⟨3, ![8, 2048, 768]⟩ : Shape).Idx → EReal := fun i =>
  elemPlain (fun q => x (ix3 (i 0) (i 1) (col q))) (fun q => θ (ix1 q)) (fun q f => W1 (ix2 q f)) (fun f => b1 (ix1 f))
    (fun f => W2 (ix2 f (i 2))) (b2 (ix1 (i 2))) zeroWord

/-- What the kernel's one region computes: the [16384, 768] array, row r = one token, from the token rows `x2`, the folded
    weights `w` and the other three arrays, element (r, e) in the folded arrangement. -/
def rowsOut (x2 : (⟨2, ![16384, 768]⟩ : Shape).Idx → EReal) (w : (⟨2, ![4, 3072]⟩ : Shape).Idx → EReal)
    (b1 : (⟨1, ![3072]⟩ : Shape).Idx → EReal) (w2 : (⟨2, ![3072, 768]⟩ : Shape).Idx → EReal) (b2 : (⟨1, ![768]⟩ : Shape).Idx → EReal) :
    (⟨2, ![16384, 768]⟩ : Shape).Idx → EReal := fun i =>
  elemFolded (fun q => x2 (ix2 (i 0) (col q))) (fun q f => w (ix2 q f)) (fun f => b1 (ix1 f))
    (fun f => w2 (ix2 f (i 1))) (b2 (ix1 (i 1))) zeroWord

/-- `ffn` at (b, t, e), coordinates spelt out. -/
theorem ffn_ix3 (x : (⟨3, ![8, 2048, 768]⟩ : Shape).Idx → EReal) (θ : (⟨1, ![4]⟩ : Shape).Idx → EReal)
    (W1 : (⟨2, ![4, 3072]⟩ : Shape).Idx → EReal) (b1 : (⟨1, ![3072]⟩ : Shape).Idx → EReal)
    (W2 : (⟨2, ![3072, 768]⟩ : Shape).Idx → EReal) (b2 : (⟨1, ![768]⟩ : Shape).Idx → EReal)
    (b : Fin 8) (t : Fin 2048) (e : Fin 768) :
    ffn x θ W1 b1 W2 b2 (ix3 b t e)
      = elemPlain (fun q => x (ix3 b t (col q))) (fun q => θ (ix1 q)) (fun q f => W1 (ix2 q f)) (fun f => b1 (ix1 f))
          (fun f => W2 (ix2 f e)) (b2 (ix1 e)) zeroWord := rfl

/-- `rowsOut` at (r, e), coordinates spelt out. -/
theorem rowsOut_ix2 (x2 : (⟨2, ![16384, 768]⟩ : Shape).Idx → EReal) (w : (⟨2, ![4, 3072]⟩ : Shape).Idx → EReal)
    (b1 : (⟨1, ![3072]⟩ : Shape).Idx → EReal) (w2 : (⟨2, ![3072, 768]⟩ : Shape).Idx → EReal) (b2 : (⟨1, ![768]⟩ : Shape).Idx → EReal)
    (r : Fin 16384) (e : Fin 768) :
    rowsOut x2 w b1 w2 b2 (ix2 r e)
      = elemFolded (fun q => x2 (ix2 r (col q))) (fun q f => w (ix2 q f)) (fun f => b1 (ix1 f))
          (fun f => w2 (ix2 f e)) (b2 (ix1 e)) zeroWord := rfl

end Cert.FeedForward

end
-- ==== Proof.RefValue.lean ====
/-
  The reference's result is `ffn` of its six arguments, element by element.

  The reference slices the four angle channels out of x, takes cosines of them and of θ, multiplies the two (θ's cosines
  broadcast along the batch and token axes), contracts the channel axis with W1, adds b1 (broadcast), takes the maximum with
  zero, contracts the hidden axis with W2 and adds b2 (broadcast). Read at the index (b, t, e): each broadcast and the slice
  only rename coordinates, each contraction is a sum over its one contracted coordinate, and what is left is the plain
  formula `elemPlain` on the angles x[b, t, 0..3] — the definition of `ffn`.
-/
import proofs.«159896_j65481071399892_2_alg».proof.Proof.Gen.ReferenceIdeal.Read
import proofs.«159896_j65481071399892_2_alg».proof.Proof.Spec

noncomputable section

namespace Cert.ReferenceIdeal.RefValue

open Cert.ReferenceIdeal Cert.ReferenceIdeal.Read Cert.FeedForward
open Idealize.ShloMosaic Idealize.ShloMosaic.ValueIdx

variable (b : Fin 8) (t : Fin 2048) (e : Fin 768) (f : Fin 3072) (q : Fin 4)

/-! ## Where each operand is read, coordinate by coordinate -/

/-- The angle that enters hidden unit f through channel q of output (b, t, e) is x[b, t, q]. -/
theorem at_x : idx_main_v0 (lidx_main_v6 (lidx_main_v11 (ix3 b t e) f) q) = ix3 b t (col q) :=
  funext fun a => Fin.ext (by match a with | ⟨0, _⟩ => rfl | ⟨1, _⟩ => rfl | ⟨2, _⟩ => rfl)

/-- Its partner is θ[q], whatever the batch and token. -/
theorem at_theta : idx_main_v3 (idx_main_v4 (lidx_main_v6 (lidx_main_v11 (ix3 b t e) f) q)) = ix1 q :=
  funext fun a => Fin.ext (by match a with | ⟨0, _⟩ => rfl)

/-- The first-layer weight is W1[q, f]. -/
theorem at_W1 : ridx_main_v6 (lidx_main_v11 (ix3 b t e) f) q = ix2 q f :=
  funext fun a => Fin.ext (by match a with | ⟨0, _⟩ => rfl | ⟨1, _⟩ => rfl)

/-- The first-layer bias is b1[f]. -/
theorem at_b1 : idx_main_v7 (idx_main_v8 (lidx_main_v11 (ix3 b t e) f)) = ix1 f :=
  funext fun a => Fin.ext (by match a with | ⟨0, _⟩ => rfl)

/-- The second-layer weight is W2[f, e]. -/
theorem at_W2 : ridx_main_v11 (ix3 b t e) f = ix2 f e :=
  funext fun a => Fin.ext (by match a with | ⟨0, _⟩ => rfl | ⟨1, _⟩ => rfl)

/-- The second-layer bias is b2[e]. -/
theorem at_b2 : idx_main_v12 (idx_main_v13 (ix3 b t e)) = ix1 e :=
  funext fun a => Fin.ext (by match a with | ⟨0, _⟩ => rfl)

/-! ## The reference's last stage is `ffn` -/

/-- The reference's result array, as the generated stages compose it, is `ffn` of the arguments. -/
theorem val_eq_ffn (x0 : (⟨S8x2048x768, .f32⟩ : BufTy).Contents (Elt Ideal)) (x1 : (⟨S4, .f32⟩ : BufTy).Contents (Elt Ideal))
    (x2 : (⟨S4x3072, .f32⟩ : BufTy).Contents (Elt Ideal)) (x3 : (⟨S3072, .f32⟩ : BufTy).Contents (Elt Ideal))
    (x4 : (⟨S3072x768, .f32⟩ : BufTy).Contents (Elt Ideal)) (x5 : (⟨S768, .f32⟩ : BufTy).Contents (Elt Ideal)) :
    val_main_v14 (F := Ideal) x0 x1 x2 x3 x4 x5 = ffn x0 x1 x2 x3 x4 x5 := by
  funext i
  obtain ⟨b, t, e, rfl⟩ : ∃ (b : Fin 8) (t : Fin 2048) (e : Fin 768), i = ix3 b t e := ⟨i 0, i 1, i 2, eq_ix3 i⟩
  simp only [val_main_v14_apply, val_main_v11_apply, val_main_v13_apply, val_main_v12_apply, val_main_v10_apply,
    val_main_call0_v0_apply, val_main_call0_cst_apply, val_main_v9_apply, val_main_v8_apply, val_main_v7_apply,
    val_main_v6_apply, val_main_v5_apply, val_main_v4_apply, val_main_v3_apply, val_main_v2_apply, val_main_v1_apply,
    val_main_v0_apply, at_x, at_theta, at_W1, at_b1, at_W2, at_b2,
    Ideal.addf_def, Ideal.mulf_def, Ideal.maximumf_def, Ideal.hostUnary_cos_def, Ideal.ofBits_def]
  rfl

end Cert.ReferenceIdeal.RefValue

end
-- ==== Proof.Payload.lean ====
/-
  The block the kernel body stores, read at one element.

  At a grid point the body holds the point's 1024 token rows (their four angle channels `v0`), the folded first-layer weights
  `v3` [4, 3072], the first bias `v36`, the second-layer weights `v43` [3072, 768] and the second bias `v46`. It forms the
  hidden layer as four rank-one products — column q of cos(v0), a [1024, 1] column spread along the 3072 hidden units, times
  row q of the weights, a [1, 3072] row spread along the 1024 tokens — added left to right, adds the bias row, takes the
  maximum with zero, multiplies by the second-layer weights (a contraction over the 3072 hidden units into a zero
  accumulator) and adds the second bias row. The change of float format before the contraction is the identity on extended
  reals. Read at token p and output column e every spreading and slicing only renames coordinates, the contraction is a sum
  over the hidden unit, and the element is `elemFolded` of row p's four angles.
-/
import proofs.«159896_j65481071399892_2_alg».proof.Proof.Gen.KernelIdeal.Skeleton
import proofs.«159896_j65481071399892_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.FeedForward
open Idealize.ShloMosaic Idealize.ShloMosaic.ValueIdx

/-- A column [a, 1] spread to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One rank-one product of the first layer at (p, f): column q of `c` at token p times row q of `w` at hidden unit f
    (`o` is q as the slices' offset). -/
theorem rank1_apply (c : FVec Ideal S1024x4 .f32) (w : FVec Ideal S4x3072 .f32) (o : ℕ) (q : Fin 4) (hq : q.val = o)
    (hs : S1024x4.Slices ![0, o] S1024x1) (hr : S4x3072.Slices ![o, 0] S1x3072) (p : Fin 1024) (f : Fin 3072) :
    mulf (broadcastTo S1024x3072 (extractStridedSlice S1024x1 ![0, o] c hs) broadcasts_S1024x1_S1024x3072)
      (broadcastTo S1024x3072 (shapeCast S1x3072 (shapeCast S3072 (extractStridedSlice S1x3072 ![o, 0] w hr)
        shapeCasts_S1x3072_S3072) shapeCasts_S3072_S1x3072) broadcasts_S1x3072_S1024x3072) (ix2 p f)
    = c (ix2 p q) * w (ix2 q f) := by
  rw [mulf_apply, broadcastTo_a1_ab_apply, broadcastTo_1b_ab_apply, shapeCast_a_1a_apply, shapeCast_1a_a_apply,
    slice2_axis1_apply o c hs p 0 q (hq.trans (Nat.add_zero o).symm),
    slice2_axis0_apply o w hr 0 f q (hq.trans (Nat.add_zero o).symm)]

/-- A bias vector made a row and spread over the tokens reads, at (p, c), the bias at c. -/
theorem bias_row_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-! ## The second layer's contraction, coordinate by coordinate -/

/-- The left operand of the contraction is read at (token, hidden unit), the right at (hidden unit, column). -/
theorem lhs_0 (i : S1024x768.Idx) (q : dot_S1024x3072_S3072x768_S1024x768_1_0_0_1_n_n.contr.Idx) : (dot_S1024x3072_S3072x768_S1024x768_1_0_0_1_n_n.lhsIdx i q 0).val = (i 0).val := by
  unfold DotDims.lhsIdx
  rw [dif_neg (show ¬(0 : Fin S1024x3072.rank) ∈ dot_S1024x3072_S3072x768_S1024x768_1_0_0_1_n_n.lhsBatch by decide),
    dif_pos (show (0 : Fin S1024x3072.rank) ∈ dot_S1024x3072_S3072x768_S1024x768_1_0_0_1_n_n.lhsNonContracting by decide)]
  rfl
theorem lhs_1 (i : S1024x768.Idx) (q : dot_S1024x3072_S3072x768_S1024x768_1_0_0_1_n_n.contr.Idx) : (dot_S1024x3072_S3072x768_S1024x768_1_0_0_1_n_n.lhsIdx i q 1).val = (q ⟨0, by decide⟩).val :=
  dot_S1024x3072_S3072x768_S1024x768_1_0_0_1_n_n.lhsIdx_val_of_single rfl i q
theorem rhs_0 (i : S1024x768.Idx) (q : dot_S1024x3072_S3072x768_S1024x768_1_0_0_1_n_n.contr.Idx) : (dot_S1024x3072_S3072x768_S1024x768_1_0_0_1_n_n.rhsIdx i q 0).val = (q ⟨0, by decide⟩).val :=
  dot_S1024x3072_S3072x768_S1024x768_1_0_0_1_n_n.rhsIdx_val_of_single rfl i q
theorem rhs_1 (i : S1024x768.Idx) (q : dot_S1024x3072_S3072x768_S1024x768_1_0_0_1_n_n.contr.Idx) : (dot_S1024x3072_S3072x768_S1024x768_1_0_0_1_n_n.rhsIdx i q 1).val = (i 1).val := by
  unfold DotDims.rhsIdx
  rw [dif_neg (show ¬(1 : Fin S3072x768.rank) ∈ dot_S1024x3072_S3072x768_S1024x768_1_0_0_1_n_n.rhsBatch by decide),
    dif_pos (show (1 : Fin S3072x768.rank) ∈ dot_S1024x3072_S3072x768_S1024x768_1_0_0_1_n_n.rhsNonContracting by decide)]
  rfl

/-- With the contracted coordinate named k < 3072: the left operand at (p, k). -/
theorem lhs_at (p : Fin 1024) (e : Fin 768) (k : Fin 3072) :
    dot_S1024x3072_S3072x768_S1024x768_1_0_0_1_n_n.lhsIdx (ix2 p e) ((contrEquiv1 dot_S1024x3072_S3072x768_S1024x768_1_0_0_1_n_n 3072 rfl rfl).symm k) = ix2 p k := by
  have hk := contrEquiv1_symm_val dot_S1024x3072_S3072x768_S1024x768_1_0_0_1_n_n 3072 rfl rfl k
  exact funext fun a => Fin.ext (by
    match a with
    | ⟨0, _⟩ => exact lhs_0 _ _
    | ⟨1, _⟩ => exact (lhs_1 _ _).trans hk)

/-- And the right operand at (k, e). -/
theorem rhs_at (p : Fin 1024) (e : Fin 768) (k : Fin 3072) :
    dot_S1024x3072_S3072x768_S1024x768_1_0_0_1_n_n.rhsIdx (ix2 p e) ((contrEquiv1 dot_S1024x3072_S3072x768_S1024x768_1_0_0_1_n_n 3072 rfl rfl).symm k) = ix2 k e := by
  have hk := contrEquiv1_symm_val dot_S1024x3072_S3072x768_S1024x768_1_0_0_1_n_n 3072 rfl rfl k
  exact funext fun a => Fin.ext (by
    match a with
    | ⟨0, _⟩ => exact (rhs_0 _ _).trans hk
    | ⟨1, _⟩ => exact rhs_1 _ _)

/-- The contraction's result at (p, e): the sum over hidden units f of the rectified first layer at (p, f) times the
    second-layer weight at (f, e). -/
theorem pay2_apply (v0 : Vec Ideal S1024x4 .f32) (v3 : Vec Ideal S4x3072 .f32) (v36 : Vec Ideal S3072 .f32)
    (v43 : Vec Ideal S3072x768 .bf16) (p : Fin 1024) (e : Fin 768) :
    k0_pay2 v0 v3 v36 v43 (ix2 p e) = ∑ f : Fin 3072,
      max (Ideal.cos (v0 (ix2 p 0)) * v3 (ix2 0 f) + Ideal.cos (v0 (ix2 p 1)) * v3 (ix2 1 f) + Ideal.cos (v0 (ix2 p 2)) * v3 (ix2 2 f)
        + Ideal.cos (v0 (ix2 p 3)) * v3 (ix2 3 f) + v36 (ix1 f)) zeroWord * v43 (ix2 f e) := by
  unfold k0_pay2
  simp only [matmul, shapeCast_self]
  rw [Ideal.matmul_constant_zero_apply, ← Equiv.sum_comp (contrEquiv1 dot_S1024x3072_S3072x768_S1024x768_1_0_0_1_n_n 3072 rfl rfl).symm]
  refine Finset.sum_congr rfl fun k _ => ?_
  rw [lhs_at p e k, rhs_at p e k]
  rw [truncf_apply, maximumf_apply, addf_apply, addf_apply, addf_apply, addf_apply,
    rank1_apply _ _ 0 0 rfl, rank1_apply _ _ 1 1 rfl, rank1_apply _ _ 2 2 rfl, rank1_apply _ _ 3 3 rfl, bias_row_apply]
  rfl

/-- The second bias spread over the tokens, at (p, e): the bias at e. -/
theorem pay3_apply (v46 : Vec Ideal S768 .f32) (p : Fin 1024) (e : Fin 768) : k0_pay3 v46 (ix2 p e) = v46 (ix1 e) := by
  unfold k0_pay3
  exact bias_row_apply v46 _ _ p e

/-- THE STORED BLOCK at (p, e) is `elemFolded` of token p's four angles, the folded weights and the two biases. -/
theorem payload_apply (v0 : Vec Ideal S1024x4 .f32) (v3 : Vec Ideal S4x3072 .f32) (v36 : Vec Ideal S3072 .f32)
    (v43 : Vec Ideal S3072x768 .bf16) (v46 : Vec Ideal S768 .f32) (p : Fin 1024) (e : Fin 768) :
    k0_pay1 (k0_pay2 v0 v3 v36 v43) (k0_pay3 v46) (ix2 p e)
      = elemFolded (fun q => v0 (ix2 p q)) (fun q f => v3 (ix2 q f)) (fun f => v36 (ix1 f)) (fun f => v43 (ix2 f e))
          (v46 (ix1 e)) zeroWord := by
  unfold k0_pay1
  rw [addf_apply, pay2_apply, pay3_apply]
  rfl

end Cert.KernelIdeal.Hand

end
-- ==== Proof.Blocks.lean ====
/-
  The region's output array after the run: one function of the arrays the region finds.

  The grid has 16 points; point t takes token rows 1024·t … 1024·t + 1023 — the first 128 channels of those rows as its
  input block, of which the body reads the first four —, the whole of the folded weights, of both biases and of the
  second-layer weights, and writes rows 1024·t … 1024·t + 1023 of the [16384, 768] output. What it writes is the body's
  stored block, which element by element is `elemFolded` on the row's four angles (Payload). So every point writes ITS BLOCK OF
  ONE whole-array function, `rowsOut` of the arrays as the region finds them; the 16 row blocks cover the array (row r lies in
  block r / 1024), and the array ends holding that function.
-/
import proofs.«159896_j65481071399892_2_alg».proof.Proof.Gen.KernelIdeal.Frame
import proofs.«159896_j65481071399892_2_alg».proof.Proof.Payload
import Idealize.ShloMosaic.Lib.Pipeline.Value

noncomputable section

namespace Cert.KernelIdeal.Hand

open Cert.KernelIdeal Cert.KernelIdeal.Gen Cert.FeedForward
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The zero offsets, however spelt. -/
theorem hz2 : (![0, 0] : Fin 2 → Nat) = fun _ => 0 := funext fun a => by fin_cases a <;> rfl
theorem hz1 : (![0] : Fin 1 → Nat) = fun _ => 0 := funext fun a => by fin_cases a <;> rfl

/-- Where each window's block sits at point t, decided over the 16 points: the token rows' and the output's blocks are block t
    along the rows and block 0 along the channels; every other window has the one block 0. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) = t.val :=
  (by decide +kernel : ∀ t : Fin grid0.N, _)

/-- The whole-array function the region computes, from the arrays as the region finds them. -/
abbrev region (c : Dev nD) : S16384x768.Idx → EReal :=
  rowsOut (V m c main_v0) (V m c main_v4) (V m c main_arg3) (V m c main_v5) (V m c main_arg5)

/-- WHAT POINT `t` WRITES BACK is block t of `region`: local row p of the block is array row 1024·t + p in the token rows and
    in the output alike, and the other windows' blocks are their whole arrays. -/
theorem flushed_eq (c : Dev nD) (t : Fin cfg0.N) :
    (dats m 0 c).flushed 5 t = ((cfg0.win 5).blk t).view.read (Elt Ideal) (region m c) := by
  show (cfg0.win 5).cut (grid0.coords t) ((dats m 0 c).after 5 t) = _
  rw [after0_5]
  unfold out0_5
  rw [View.canon_unit_zero hz2]
  simp only [View.ld_unit_zero (S := S4x3072) hz2, View.ld_unit_zero (S := S3072) hz1,
    View.ld_unit_zero (S := S3072x768) hz2, View.ld_unit_zero (S := S768) hz1]
  obtain ⟨e00, e01, e10, e11, e2, e30, e31, e4, e51, e50⟩ := idx_facts t
  funext j
  obtain ⟨p, e, rfl⟩ : ∃ (p : Fin 1024) (e : Fin 768), j = ix2 p e := ⟨j 0, j 1, eq_ix2 j⟩
  have ht : t.val < 16 := lt_of_lt_of_eq t.isLt N_0
  have hr : t.val * 1024 + p.val < 16384 := by have := p.isLt; omega
  show k0_pay1 (k0_pay2 (View.ld (iblk m c 0 t) r0_0) (iblk m c 1 t) (iblk m c 2 t) (iblk m c 3 t)) (k0_pay3 (iblk m c 4 t)) (ix2 p e)
    = region m c (((cfg0.win 5).blk t).view.emb (ix2 p e))
  refine (payload_apply (View.ld (iblk m c 0 t) r0_0) (iblk m c 1 t) (iblk m c 2 t) (iblk m c 3 t) (iblk m c 4 t) p e).trans ?_
  have hemb : ((cfg0.win 5).blk t).view.emb (ix2 p e) = ix2 (⟨t.val * 1024 + p.val, hr⟩ : Fin 16384) e := by
    funext a; apply Fin.ext
    match a with
    | ⟨0, _⟩ => show win0_5.index t (0 : Fin 2) * 1024 + 1 * p.val = t.val * 1024 + p.val; rw [e50]; omega
    | ⟨1, _⟩ => show win0_5.index t (1 : Fin 2) * 768 + 1 * e.val = e.val; rw [e51]; omega
  rw [hemb]
  refine Eq.trans ?_ (rowsOut_ix2 (V m c main_v0) (V m c main_v4) (V m c main_arg3) (V m c main_v5) (V m c main_arg5)
    (⟨t.val * 1024 + p.val, hr⟩ : Fin 16384) e).symm
  have h0 : ∀ q : Fin 4, View.ld (iblk m c 0 t) r0_0 (ix2 p q)
      = V m c main_v0 (ix2 (⟨t.val * 1024 + p.val, hr⟩ : Fin 16384) (col q)) := fun q => by
    show V m c main_v0 (((cfg0.win 0).blk t).view.emb (r0_0.emb (ix2 p q))) = _
    refine congrArg (V m c main_v0) (funext fun a => Fin.ext ?_)
    match a with
    | ⟨0, _⟩ => show win0_0.index t (0 : Fin 2) * 1024 + 1 * (0 + 1 * p.val) = t.val * 1024 + p.val; rw [e00, e50]; omega
    | ⟨1, _⟩ => show win0_0.index t (1 : Fin 2) * 128 + 1 * (0 + 1 * q.val) = q.val; rw [e01]; omega
  have h1 : ∀ (q : Fin 4) (f : Fin 3072), iblk m c 1 t (ix2 q f) = V m c main_v4 (ix2 q f) := fun q f => by
    show V m c main_v4 (((cfg0.win 1).blk t).view.emb (ix2 q f)) = _
    refine congrArg (V m c main_v4) (funext fun a => Fin.ext ?_)
    match a with
    | ⟨0, _⟩ => show win0_1.index t (0 : Fin 2) * 4 + 1 * q.val = q.val; rw [e10]; omega
    | ⟨1, _⟩ => show win0_1.index t (1 : Fin 2) * 3072 + 1 * f.val = f.val; rw [e11]; omega
  have h2 : ∀ f : Fin 3072, iblk m c 2 t (ix1 f) = V m c main_arg3 (ix1 f) := fun f => by
    show V m c main_arg3 (((cfg0.win 2).blk t).view.emb (ix1 f)) = _
    refine congrArg (V m c main_arg3) (funext fun a => Fin.ext ?_)
    match a with
    | ⟨0, _⟩ => show win0_2.index t (0 : Fin 1) * 3072 + 1 * f.val = f.val; rw [e2]; omega
  have h3 : ∀ f : Fin 3072, iblk m c 3 t (ix2 f e) = V m c main_v5 (ix2 f e) := fun f => by
    show V m c main_v5 (((cfg0.win 3).blk t).view.emb (ix2 f e)) = _
    refine congrArg (V m c main_v5) (funext fun a => Fin.ext ?_)
    match a with
    | ⟨0, _⟩ => show win0_3.index t (0 : Fin 2) * 3072 + 1 * f.val = f.val; rw [e30]; omega
    | ⟨1, _⟩ => show win0_3.index t (1 : Fin 2) * 768 + 1 * e.val = e.val; rw [e31]; omega
  have h4 : iblk m c 4 t (ix1 e) = V m c main_arg5 (ix1 e) := by
    show V m c main_arg5 (((cfg0.win 4).blk t).view.emb (ix1 e)) = _
    refine congrArg (V m c main_arg5) (funext fun a => Fin.ext ?_)
    match a with
    | ⟨0, _⟩ => show win0_4.index t (0 : Fin 1) * 768 + 1 * e.val = e.val; rw [e4]; omega
  simp only [h0, h1, h2, h3, h4]

/-- An index of the output array is in point t's block iff each coordinate is in the block's range on its axis. -/
theorem mem_blk (t : Fin cfg0.N) (i : S16384x768.Idx) :
    i ∈ ((cfg0.win 5).blk t).view.set ↔ ∀ a : Fin 2, win0_5.index t a * S1024x768.size a ≤ (i a).val
      ∧ (i a).val < win0_5.index t a * S1024x768.size a + S1024x768.size a := by
  show i ∈ ((View.whole main_v6).slice (win0_5.rect t)).set ↔ _
  rw [View.set_slice_whole, Rect.mem_set_unit]
  exact Iff.rfl

/-- Every index of the output array is in some point's block: row r in block r / 1024. -/
theorem cover (i : S16384x768.Idx) :
    ∃ t : Fin cfg0.N, (cfg0.win 5).flush t = true ∧ i ∈ ((cfg0.win 5).blk t).view.set := by
  have hi0 : (i 0).val < 16384 := (i 0).isLt
  have hi1 : (i 1).val < 768 := (i 1).isLt
  have hlt : (i 0).val / 1024 < cfg0.N := lt_of_lt_of_eq (by omega : (i 0).val / 1024 < 16) N_0.symm
  obtain ⟨-, -, -, -, -, -, -, -, e51, e50⟩ := idx_facts ⟨(i 0).val / 1024, hlt⟩
  refine ⟨⟨(i 0).val / 1024, hlt⟩, flush0_5 _, ?_⟩
  rw [mem_blk]
  intro a
  match a with
  | ⟨0, _⟩ =>
    show win0_5.index ⟨(i 0).val / 1024, hlt⟩ (0 : Fin 2) * 1024 ≤ (i 0).val
      ∧ (i 0).val < win0_5.index ⟨(i 0).val / 1024, hlt⟩ (0 : Fin 2) * 1024 + 1024
    rw [e50]; show (i 0).val / 1024 * 1024 ≤ (i 0).val ∧ (i 0).val < (i 0).val / 1024 * 1024 + 1024; omega
  | ⟨1, _⟩ =>
    show win0_5.index ⟨(i 0).val / 1024, hlt⟩ (1 : Fin 2) * 768 ≤ (i 1).val
      ∧ (i 1).val < win0_5.index ⟨(i 0).val / 1024, hlt⟩ (1 : Fin 2) * 768 + 768
    rw [e51]; omega

/-- THE ARRAY AFTER THE RUN is `region`. -/
theorem final (c : Dev nD) : (dats m 0 c).arrAt 5 cfg0.N = region m c :=
  (dats m 0 c).arrAt_eq_of_cover 5 (region m c) (fun t _ => flushed_eq m c t) cover

end Cert.KernelIdeal.Hand

end
-- ==== Proof.Bridge.lean ====
/-
  From the region's rows back to the [8, 2048, 768] result: the host operations around the kernel's one region.

  Before the region the host flattens x to token rows (row b·2048 + t of the [16384, 768] array is x[b, t, ·]), multiplies
  cos θ — made a column [4, 1] and spread along the 3072 hidden units — into W1, and changes W2's float format (the identity on
  extended reals). After it, the [16384, 768] result is folded back to [8, 2048, 768]. Element (b, t, e) of the folded result
  is therefore the region's element (b·2048 + t, e): `elemFolded` on the angles x[b, t, 0..3] with the weights
  W1 q f · cos(θ q), which is the plain formula by `elemFolded_eq_elemPlain`.
-/
import proofs.«159896_j65481071399892_2_alg».proof.Proof.Gen.KernelIdeal
import proofs.«159896_j65481071399892_2_alg».proof.Proof.Spec
import Idealize.ShloMosaic.Lib.Pipeline.Value
import Idealize.ShloMosaic.Lib.ValueIdx

noncomputable section

namespace Cert.KernelIdeal.Hand

open Cert.KernelIdeal Cert.KernelIdeal.Gen Cert.FeedForward
open Idealize.ShloMosaic Idealize.ShloMosaic.ValueIdx

/-- Token row b·2048 + t of the flattened x is x[b, t, ·]: the two have the same row-major position. -/
theorem flat_x (x : FVec Ideal S8x2048x768 .f32) (b : Fin 8) (t : Fin 2048) (k : Fin 768) (h : b.val * 2048 + t.val < 16384) :
    shapeCast S16384x768 x shapeCasts_S8x2048x768_S16384x768 (ix2 (⟨b.val * 2048 + t.val, h⟩ : Fin 16384) k) = x (ix3 b t k) :=
  shapeCast_apply x _ (ix2 (⟨b.val * 2048 + t.val, h⟩ : Fin 16384) k) (ix3 b t k) (by
    rw [Shape.rowMajor_val_three, Shape.rowMajor_val_two]
    rfl)

/-- Folding the rows back: element (b, t, e) of the result is row b·2048 + t, column e. -/
theorem unflat (y : FVec Ideal S16384x768 .f32) (b : Fin 8) (t : Fin 2048) (e : Fin 768) (h : b.val * 2048 + t.val < 16384) :
    shapeCast S8x2048x768 y shapeCasts_S16384x768_S8x2048x768 (ix3 b t e) = y (ix2 (⟨b.val * 2048 + t.val, h⟩ : Fin 16384) e) :=
  shapeCast_apply y _ (ix3 b t e) (ix2 (⟨b.val * 2048 + t.val, h⟩ : Fin 16384) e) (by
    rw [Shape.rowMajor_val_three, Shape.rowMajor_val_two]
    rfl)

/-- The folded first-layer weight at (q, f) is W1[q, f] · cos(θ[q]). -/
theorem folded_w (W1 : FVec Ideal S4x3072 .f32) (θ : FVec Ideal S4 .f32) (q : Fin 4) (f : Fin 3072) :
    mulf W1 (broadcastInDim S4x3072 ![0, 1] bcast_S4x1_S4x3072_0_1 (broadcastInDim S4x1 ![0] bcast_S4_S4x1_0 (Host.cos θ))) (ix2 q f)
      = W1 (ix2 q f) * Ideal.cos (θ (ix1 q)) := by
  rw [mulf_apply,
    broadcastInDim_apply _ bcast_S4x1_S4x3072_0_1 _ (ix2 q f) (ix2 q (0 : Fin 1)) (fun a => match a with
      | ⟨0, _⟩ => by show q.val = if (4 : Nat) = 1 then 0 else q.val; rw [if_neg (by decide)]
      | ⟨1, _⟩ => by show 0 = if (1 : Nat) = 1 then 0 else f.val; rw [if_pos rfl]),
    broadcastInDim_apply _ bcast_S4_S4x1_0 _ (ix2 q (0 : Fin 1)) (ix1 q) (fun a => match a with
      | ⟨0, _⟩ => by show q.val = if (4 : Nat) = 1 then 0 else q.val; rw [if_neg (by decide)])]
  rfl

/-- THE BRIDGE: the region's function of the flattened x, the folded weights and the re-formatted W2, folded back to
    [8, 2048, 768], is `ffn` of the six arguments. -/
theorem rows_eq_ffn (x : FVec Ideal S8x2048x768 .f32) (θ : FVec Ideal S4 .f32) (W1 : FVec Ideal S4x3072 .f32)
    (b1 : FVec Ideal S3072 .f32) (W2 : FVec Ideal S3072x768 .f32) (b2 : FVec Ideal S768 .f32) :
    shapeCast S8x2048x768
        (rowsOut (shapeCast S16384x768 x shapeCasts_S8x2048x768_S16384x768)
          (mulf W1 (broadcastInDim S4x3072 ![0, 1] bcast_S4x1_S4x3072_0_1 (broadcastInDim S4x1 ![0] bcast_S4_S4x1_0 (Host.cos θ))))
          b1 (truncf .bf16 W2 bitsLt_bf16_f32) b2)
        shapeCasts_S16384x768_S8x2048x768
      = ffn x θ W1 b1 W2 b2 := by
  funext i
  obtain ⟨b, t, e, rfl⟩ : ∃ (b : Fin 8) (t : Fin 2048) (e : Fin 768), i = ix3 b t e := ⟨i 0, i 1, i 2, eq_ix3 i⟩
  have h : b.val * 2048 + t.val < 16384 := by have := b.isLt; have := t.isLt; omega
  rw [unflat _ b t e h, rowsOut_ix2, ffn_ix3]
  simp only [flat_x, truncf_apply]
  have hw : (fun (q : Fin 4) (f : Fin 3072) => mulf W1 (broadcastInDim S4x3072 ![0, 1] bcast_S4x1_S4x3072_0_1
      (broadcastInDim S4x1 ![0] bcast_S4_S4x1_0 (Host.cos θ))) (ix2 q f)) = fun q f => W1 (ix2 q f) * Ideal.cos (θ (ix1 q)) :=
    funext fun q => funext fun f => folded_w W1 θ q f
  rw [hw]
  exact elemFolded_eq_elemPlain (fun q => x (ix3 b t (col q))) (fun q => θ (ix1 q)) (fun q f => W1 (ix2 q f))
    (fun f => b1 (ix1 f)) (fun f => W2 (ix2 f e)) (b2 (ix1 e)) zeroWord

end Cert.KernelIdeal.Hand

end
-- ==== Proof.KernelRun.lean ====
/-
  The kernel program's run, read: its result array ends at `ffn` of the six argument arrays, which end unchanged.

  Around its one region the program runs host operations. Before: x flattened to [16384, 768] token rows; cos θ made a
  column, spread along the hidden units and multiplied into W1; W2 changed to the narrower float format (the identity on
  extended reals); b1 and b2 enter the region as they are. After: the region's [16384, 768] array folded back to
  [8, 2048, 768]. The region's array after the run is `rowsOut` of what the region finds (Blocks), what it finds are those
  host results, and the fold back of `rowsOut` of them is `ffn` (Bridge).
-/
import proofs.«159896_j65481071399892_2_alg».proof.Proof.Blocks
import proofs.«159896_j65481071399892_2_alg».proof.Proof.Bridge
import Idealize.ShloMosaic.Lib.StableHlo.Run

noncomputable section

namespace Cert.KernelIdeal.Hand

open Cert.KernelIdeal Cert.KernelIdeal.Gen Cert.FeedForward
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The region finds, as its token rows, x flattened. -/
theorem V_v0 (c : Dev nD) : V m c main_v0
    = (shapeCast S16384x768 ((m ((c : Thread nD τ).loc main_arg0)) : FVec Ideal S8x2048x768 .f32) shapeCasts_S8x2048x768_S16384x768 : FVec Ideal S16384x768 .f32) := by
  show StableHlo.after hostOps0 (fun b => m (c, b)) (Proc.devRef .tc main_v0) = _
  after_results
  rfl

/-- It finds, as its first-layer weights, W1 times cos θ spread along the hidden units. -/
theorem V_v4 (c : Dev nD) : V m c main_v4
    = (mulf ((m ((c : Thread nD τ).loc main_arg2)) : FVec Ideal S4x3072 .f32) (broadcastInDim S4x3072 ![0, 1] bcast_S4x1_S4x3072_0_1
        (broadcastInDim S4x1 ![0] bcast_S4_S4x1_0 (Host.cos ((m ((c : Thread nD τ).loc main_arg1)) : FVec Ideal S4 .f32)))) : FVec Ideal S4x3072 .f32) := by
  show StableHlo.after hostOps0 (fun b => m (c, b)) (Proc.devRef .tc main_v4) = _
  after_results

/-- It finds, as its second-layer weights, W2 in the narrower format. -/
theorem V_v5 (c : Dev nD) : V m c main_v5
    = (truncf .bf16 ((m ((c : Thread nD τ).loc main_arg4)) : FVec Ideal S3072x768 .f32) bitsLt_bf16_f32 : FVec Ideal S3072x768 .bf16) := by
  show StableHlo.after hostOps0 (fun b => m (c, b)) (Proc.devRef .tc main_v5) = _
  after_results

/-- After the region the result buffer holds the region's array folded back to [8, 2048, 768]. -/
theorem tail_v7 (c : Dev nD) :
    Pipeline.afterTail₀ cfgs (dats m) 0 (V0 m) [hostOps1] c main_v7
      = (shapeCast S8x2048x768 ((dats m 0 c).arrAt 5 cfg0.N : FVec Ideal S16384x768 .f32) shapeCasts_S16384x768_S8x2048x768 : FVec Ideal S8x2048x768 .f32) := by
  unfold Pipeline.afterTail₀
  show StableHlo.after hostOps1 _ (Proc.devRef .tc main_v7) = _
  after_results
  exact congrArg (fun y : FVec Ideal S16384x768 .f32 => shapeCast S8x2048x768 y shapeCasts_S16384x768_S8x2048x768)
    (Pipeline.withArrays_arr spec0 launch0.win.arr_inj c (V0 m c) (fun w => (dats m 0 c).arrAt w cfg0.N) 5)

/-- So the result buffer ends at `ffn` of the arguments as launched. -/
theorem result_eq (c : Dev nD) :
    Pipeline.afterTail₀ cfgs (dats m) 0 (V0 m) [hostOps1] c main_v7
      = ffn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [tail_v7, final, ← rows_eq_ffn]
  unfold region
  rw [V_v0, V_v4, V_v5, V_main_arg3, V_main_arg5]

/-- THE RUN: every weakly fair execution terminates without a fault, the result at `ffn` of the arguments, the arguments
    unchanged (b1 and b2 are staged by the region and never written back; the other four no operation writes). -/
theorem run : θ_run defs (onTc (τ := τ) (main (F := Ideal))) ⟨m, fun _ => 0, ρ⟩ fun r => ∀ c : Dev nD,
      r.2.mem ((c.tc : Thread nD τ).loc main_v7) = ffn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c)))⟩)
    (run_main m ρ)

end Cert.KernelIdeal.Hand

end
-- ==== Proof.lean ====
/-
  `Cert.Claim` for the quantum-feature feed-forward block: a kernel program against its reference, at the extended reals.

  Both programs compute, for batch b, token t and output column e,
      out[b, t, e] = Σ_f max (Σ_q cos(x[b, t, q]) · cos(θ[q]) · W1[q, f] + b1[f]) 0 · W2[f, e] + b2[e],   q < 4, f < 3072.
  The reference does so literally (slice, cosines, product, two contractions, two biases, one maximum). The kernel program
  folds cos θ into W1 on the host, flattens x to 16384 token rows, and runs one region over 16 blocks of 1024 rows whose body
  adds the four products cos(x[r, q]) · (W1[q, f] · cos θ[q]) left to right, adds b1, rectifies, contracts with W2 and adds
  b2; then it folds the rows back. The two differ by the grouping and order of the factors of each product and by a
  four-term sum written out, and multiplication and addition of extended reals are commutative and associative with no
  finiteness hypothesis: the results agree on every input, so the precondition is never opened.

  The parts: Spec (one output element in both arrangements and the law between them; `ffn`, `rowsOut`), RefValue (the
  reference's result is `ffn`), Payload (the body's stored block at an element), Blocks (the region's array after the run),
  Bridge (the host operations around the region), KernelRun (the kernel program's run ends at `ffn`). The three frames are the
  generated ones (the reference's is its generated run with the result dropped); no operation of the kernel was rewritten for
  the idealized reading, so there is nothing to preserve.
-/
import proofs.«159896_j65481071399892_2_alg».proof.Defs
import proofs.«159896_j65481071399892_2_alg».proof.Proof.Gen.Kernel
import proofs.«159896_j65481071399892_2_alg».proof.Proof.Gen.Kernel.Frame
import proofs.«159896_j65481071399892_2_alg».proof.Proof.Gen.KernelIdeal
import proofs.«159896_j65481071399892_2_alg».proof.Proof.Gen.KernelIdeal.Frame
import proofs.«159896_j65481071399892_2_alg».proof.Proof.Gen.ReferenceIdeal
import proofs.«159896_j65481071399892_2_alg».proof.Proof.Gen.Pre_finite_inputs
import proofs.«159896_j65481071399892_2_alg».proof.Proof.Gen.ReferenceIdeal.Run
import proofs.«159896_j65481071399892_2_alg».proof.Proof.Gen.ReferenceIdeal.Read
import proofs.«159896_j65481071399892_2_alg».proof.Proof.RefValue
import proofs.«159896_j65481071399892_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `ffn` of the arguments: the kernel program's by `KernelRun`, the reference's by its
    generated run, whose term is `ffn` (`RefValue`) of arguments that agree with the kernel program's. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5, Cert.ReferenceIdeal.Read.val_main_v14_eq, Cert.ReferenceIdeal.RefValue.val_eq_ffn]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
